-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64 : Shape := ⟨2, ![4096, 64]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x64 .f32) (main_arg2 : FVec F S4096x64 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x64 : Shape := ⟨2, ![4096, 64]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256x64 : Shape := ⟨2, ![256, 64]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S4096x64, .f32⟩
  | .hbm, ⟨3, _⟩ => ⟨S4096, .f32⟩
  | .hbm, ⟨4, _⟩ => ⟨S8192x4096, .f32⟩
  | .hbm, ⟨5, _⟩ => ⟨S4096x64, .bf16⟩
  | .hbm, ⟨6, _⟩ => ⟨S4096x64, .bf16⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x64, .bf16⟩
  | .local _ .vmem, ⟨3, _⟩ => ⟨S4096x64, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x64_S256x64_1_0_0_1_n_n_wf : DotDims.WF S256x4096 S4096x64 S256x64 [1] [0] [0] [1] [] []
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .bf16 = 32 ∨ (Rect.block (s := S4096x64) S4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x64 : Shape := ⟨2, ![4096, 64]⟩
abbrev S4096 : Shape := ⟨1, ![4096]⟩
abbrev S4096x4096 : Shape := ⟨2, ![4096, 4096]⟩
abbrev S1x1x4096 : Shape := ⟨3, ![1, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S4096x64, .f32⟩
  | .hbm, ⟨3, _⟩ => ⟨S4096, .f32⟩
  | .hbm, ⟨4, _⟩ => ⟨S4096x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x64_S4096x64_S4096x4096_1_1_0_0_n_n_wf : DotDims.WF S4096x64 S4096x64 S4096x4096 [1] [1] [0] [0] [] []
  dot_S4x2048x4096_S4096x4096_S4x2048x4096_2_1_01_0_n_n_wf : DotDims.WF S4x2048x4096 S4096x4096 S4x2048x4096 [2] [1] [0, 1] [0] [] []

variable [Facts₀]

def dot_S4096x64_S4096x64_S4096x4096_1_1_0_0_n_n : DotDims S4096x64 S4096x64 S4096x4096 where
  lhsContracting := [1]
  rhsContracting := [1]
  lhsNonContracting := [0]
  rhsNonContracting := [0]
  lhsBatch := []
  rhsBatch := []
  wf := dot_S4096x64_S4096x64_S4096x4096_1_1_0_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowDot.lean ====
/-
  A matrix product that contracts the COLUMN axes of both operands — `lhs [A, K]` against `rhs [B, K]`, the result
  `[A, B]`, no batch axis: `lhs · rhsᵀ` — read at coordinates over the extended reals: at `(a, b)` it is the sum over
  `k` of `lhs (a, k) · rhs (b, k)`. Stated for the accumulating product into a zero accumulator and for the host's
  product. The dimension record's two non-contracted coordinates are taken as hypotheses; at a literal record they
  hold by computation.
-/
import Idealize.ShloMosaic.PureOps.Ideal.Laws
import Idealize.ShloMosaic.Lib.ValueIdx
import Idealize.ShloMosaic.Lib.Pipeline.Value

noncomputable section

namespace Cert.LibRowDot

open Idealize.ShloMosaic Idealize.ShloMosaic.ValueIdx

variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum d hr hs hlc hrc hl0 hr0 lhs rhs a b)

include hr hs hlc hrc hl0 hr0 in
/-- The host's product, at `(a, b)`. -/
theorem hostDot_apply (prec : Option ContractPrecision) :
    Host.dotGeneral d prec lhs rhs (ix2 a b) = ∑ k : Fin K, lhs (ix2 a k) * rhs (ix2 b k) :=
  (Ideal.dotGeneral_apply d prec .single lhs rhs (ix2 a b)).trans (contr_sum d hr hs hlc hrc hl0 hr0 lhs rhs a b)

end Cert.LibRowDot

end
-- ==== Proof.TileEntry.lean ====
/-
  One entry of the tile the kernel body stores. From a tile `x` of 256 rows of the input, the factor `v` [4096, 64], the
  factor `u` [4096, 64] and the bias row `β` [1, 4096], the body stores, at row `p` and column `q`,

      ∑ k < 64, (∑ i < 4096, x (p, i) · v (i, k)) · u (q, k)  +  β (0, q):

  the first product contracts the input's columns with `v`'s rows, the second contracts the rank axis of the
  intermediate with `u`'s columns (`u` is used transposed), both into zero accumulators; the changes of float format
  and the same-shape casts are the identity on the extended reals, and the bias row is repeated over the 256 rows.
-/
import proofs.«116451_j43069932044591_1_alg».proof.Proof.Gen.KernelIdeal.Skeleton
import proofs.«116451_j43069932044591_1_alg».proof.Proof.LibColumnBlocks
import proofs.«116451_j43069932044591_1_alg».proof.Proof.LibRowDot
import Idealize.ShloMosaic.Lib.ValueLayout

noncomputable section

namespace Cert.KernelIdeal.TileEntry

open Cert.KernelIdeal Cert.KernelIdeal.Gen Idealize.ShloMosaic Idealize.ShloMosaic.ValueIdx

/-- The first product's record: rows of the left operand are kept on axis 0, columns of the right on axis 1. -/
theorem d1_l0 (j : S256x64.Idx) (k : dot_S256x4096_S4096x64_S256x64_1_0_0_1_n_n.contr.Idx) :
    (dot_S256x4096_S4096x64_S256x64_1_0_0_1_n_n.lhsIdx j k 0).val = (j 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem d1_r1 (j : S256x64.Idx) (k : dot_S256x4096_S4096x64_S256x64_1_0_0_1_n_n.contr.Idx) :
    (dot_S256x4096_S4096x64_S256x64_1_0_0_1_n_n.rhsIdx j k 1).val = (j 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- The second product's record: rows of the left operand are kept on axis 0, ROWS of the right on axis 1. -/
theorem d2_l0 (j : S256x4096.Idx) (k : dot_S256x64_S4096x64_S256x4096_1_1_0_0_n_n.contr.Idx) :
    (dot_S256x64_S4096x64_S256x4096_1_1_0_0_n_n.lhsIdx j k 0).val = (j 0).val := by
  unfold DotDims.lhsIdx
  rw [dif_neg (show ¬(0 : Fin S256x64.rank) ∈ dot_S256x64_S4096x64_S256x4096_1_1_0_0_n_n.lhsBatch by decide),
    dif_pos (show (0 : Fin S256x64.rank) ∈ dot_S256x64_S4096x64_S256x4096_1_1_0_0_n_n.lhsNonContracting by decide)]
  rfl
theorem d2_r0 (j : S256x4096.Idx) (k : dot_S256x64_S4096x64_S256x4096_1_1_0_0_n_n.contr.Idx) :
    (dot_S256x64_S4096x64_S256x4096_1_1_0_0_n_n.rhsIdx j k 0).val = (j 1).val := by
  unfold DotDims.rhsIdx
  rw [dif_neg (show ¬(0 : Fin S4096x64.rank) ∈ dot_S256x64_S4096x64_S256x4096_1_1_0_0_n_n.rhsBatch by decide),
    dif_pos (show (0 : Fin S4096x64.rank) ∈ dot_S256x64_S4096x64_S256x4096_1_1_0_0_n_n.rhsNonContracting by decide)]
  rfl

/-- The intermediate `x · v` at row `p` and rank coordinate `k`. -/
theorem first_product (x : FVec Ideal S256x4096 .bf16) (v : FVec Ideal S4096x64 .bf16) (p : Fin 256) (k : Fin 64) :
    matmul dot_S256x4096_S4096x64_S256x64_1_0_0_1_n_n none x v (constant S256x64 .f32 0x00000000#32) (ix2 p k)
      = ∑ i : Fin 4096, x (ix2 p i) * v (ix2 i k) :=
  Cert.LibColumnBlocks.matmul_zero_apply dot_S256x4096_S4096x64_S256x64_1_0_0_1_n_n rfl rfl rfl rfl d1_l0 d1_r1 x v p k none

/-- The second product `h · uᵀ` at row `p` and column `q`. -/
theorem second_product (h : FVec Ideal S256x64 .bf16) (u : FVec Ideal S4096x64 .bf16) (p : Fin 256) (q : Fin 4096) :
    matmul dot_S256x64_S4096x64_S256x4096_1_1_0_0_n_n none h u (constant S256x4096 .f32 0x00000000#32) (ix2 p q)
      = ∑ k : Fin 64, h (ix2 p k) * u (ix2 q k) :=
  Cert.LibRowDot.matmul_zero_apply dot_S256x64_S4096x64_S256x4096_1_1_0_0_n_n rfl rfl rfl rfl d2_l0 d2_r0 h u p q none

/-- THE STORED ENTRY: the body's value at row `p`, column `q` of the tile. -/
theorem entry (x : Vec Ideal S256x4096 .f32) (v : Vec Ideal S4096x64 .bf16) (u : Vec Ideal S4096x64 .bf16)
    (β : Vec Ideal S1x4096 .f32) (p : Fin 256) (q : Fin 4096) :
    k0_pay1 (F := Ideal) x v u β (ix2 p q)
      = (∑ k : Fin 64, (∑ i : Fin 4096, x (ix2 p i) * v (ix2 i k)) * u (ix2 q k)) + β (ix2 (0 : Fin 1) q) := by
  unfold k0_pay1
  rw [addf_apply, second_product, broadcastTo_1b_ab_apply]
  simp only [shapeCast_self, truncf_apply, first_product]

end Cert.KernelIdeal.TileEntry

end
-- ==== Proof.ResultArray.lean ====
/-
  The array the kernel's region leaves. Write `X` [8192, 4096] for the flattened input, `Vf`, `Uf` [4096, 64] for the two
  factors and `Bf` [1, 4096] for the bias row, as the region finds them. Grid point `t` (of 32) stages rows
  `256·t … 256·t + 255` of `X`, all of `Vf`, `Uf`, `Bf`, and writes back rows `256·t … 256·t + 255` of the result. Its
  tile is therefore the restriction to those rows of ONE function of the whole arrays,

      rows X Vf Uf Bf (r, o) = ∑ k < 64, (∑ i < 4096, X (r, i) · Vf (i, k)) · Uf (o, k) + Bf (0, o),

  and since the 32 row bands cover every row (row `r` lies in band `r / 256`), the array ends holding `rows`.
-/
import proofs.«116451_j43069932044591_1_alg».proof.Proof.Gen.KernelIdeal.Frame
import proofs.«116451_j43069932044591_1_alg».proof.Proof.TileEntry
import Idealize.ShloMosaic.Lib.Pipeline.Value

set_option maxRecDepth 16384

noncomputable section

namespace Cert.KernelIdeal.ResultArray

open Cert.KernelIdeal Cert.KernelIdeal.Gen Idealize.ShloMosaic Idealize.ShloMosaic.TcCoe Idealize.SL.Sem
open Idealize.ShloMosaic.ValueIdx
open Idealize.ShloMosaic.Pipeline (Dat)

/-- The region's result as one function of the arrays it reads. -/
def rows (X : Vec Ideal S8192x4096 .f32) (Vf Uf : Vec Ideal S4096x64 .bf16) (Bf : Vec Ideal S1x4096 .f32) :
    Vec Ideal S8192x4096 .f32 :=
  fun j => (∑ k : Fin 64, (∑ i : Fin 4096, X (ix2 (j 0) i) * Vf (ix2 i k)) * Uf (ix2 (j 1) k)) + Bf (ix2 (0 : Fin 1) (j 1))

/-- A tile computed from rows `256·T + p` of `X` and from the whole of `Vf`, `Uf`, `Bf` is `rows` at the array index
    whose row is `256·T +` the tile's row and whose column is the tile's column. -/
theorem tile_eq_rows (X : Vec Ideal S8192x4096 .f32) (Vf Uf : Vec Ideal S4096x64 .bf16) (Bf : Vec Ideal S1x4096 .f32)
    (x : Vec Ideal S256x4096 .f32) (v u : Vec Ideal S4096x64 .bf16) (β : Vec Ideal S1x4096 .f32) (T : Nat)
    (hx : ∀ (p : Fin 256) (i : Fin 4096) (h : T * 256 + p.val < 8192), x (ix2 p i) = X (ix2 ⟨T * 256 + p.val, h⟩ i))
    (hv : v = Vf) (hu : u = Uf) (hβ : β = Bf)
    (j : S256x4096.Idx) (i' : S8192x4096.Idx) (h0 : (i' 0).val = T * 256 + (j 0).val) (h1 : (i' 1).val = (j 1).val) :
    k0_pay1 (F := Ideal) x v u β j = rows X Vf Uf Bf i' := by
  subst hv hu hβ
  obtain ⟨p, q, rfl⟩ : ∃ (p : Fin 256) (q : Fin 4096), j = ix2 p q := ⟨j 0, j 1, eq_ix2 j⟩
  have h0' : (i' 0).val = T * 256 + p.val := h0
  have h1' : (i' 1).val = q.val := h1
  have hlt : T * 256 + p.val < 8192 := by have := idx2_lt0 i'; omega
  have e0 : i' 0 = ⟨T * 256 + p.val, hlt⟩ := Fin.ext h0'
  have e1 : i' 1 = q := Fin.ext h1'
  rw [TileEntry.entry]
  unfold rows
  rw [e0, e1]
  simp only [fun i => hx p i hlt]
  rfl

theorem hz : (![0, 0] : Fin 2 → Nat) = fun _ => 0 := funext fun a => by fin_cases a <;> rfl

/-- The printed index maps over the 32 grid points: the input's and the result's tiles are row band `t`; the two
    factors and the bias row are always their one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (m : (ℓ : Loc nD τ sig) → Buf (Elt Ideal) ℓ)

/-- WHAT POINT `t` WRITES BACK is row band `t` of `rows` of the arrays as the region finds them. -/
theorem flushed_eq (c : Dev nD) (t : Fin cfg0.N) :
    (dats m 0 c).flushed 4 t
      = ((cfg0.win 4).blk t).view.read (Elt Ideal) (rows (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S4096x64) hz, View.ld_unit_zero (S := S1x4096) hz]
  obtain ⟨a00, a01, a10, a11, a20, a21, a30, a31, a40, a41⟩ := idx_facts t
  funext j
  show k0_pay1 (F := Ideal) (iblk m c 0 t) (iblk m c 1 t) (iblk m c 2 t) (iblk m c 3 t) j
    = rows (V m c main_v0) (V m c main_v1) (V m c main_v2) (V m c main_v3) (((cfg0.win 4).blk t).view.emb j)
  refine tile_eq_rows (V m c main_v0) (V m c main_v1) (V m c main_v2) (V m c main_v3)
    (iblk m c 0 t) (iblk m c 1 t) (iblk m c 2 t) (iblk m c 3 t) t.val ?_ ?_ ?_ ?_ j (((cfg0.win 4).blk t).view.emb j) ?_ ?_
  · intro p i h
    show V m c main_v0 (((cfg0.win 0).blk t).view.emb (ix2 p i)) = V m c main_v0 (ix2 ⟨t.val * 256 + p.val, h⟩ i)
    refine congrArg (V m c main_v0) (funext fun a => Fin.ext ?_)
    match a with
    | ⟨0, _⟩ => show win0_0.index t (0 : Fin 2) * 256 + 1 * p.val = t.val * 256 + p.val; omega
    | ⟨1, _⟩ => show win0_0.index t (1 : Fin 2) * 4096 + 1 * i.val = i.val; omega
  · funext y
    show V m c main_v1 (((cfg0.win 1).blk t).view.emb y) = V m c main_v1 y
    refine congrArg (V m c main_v1) (funext fun a => Fin.ext ?_)
    match a with
    | ⟨0, _⟩ => show win0_1.index t (0 : Fin 2) * 4096 + 1 * (y 0).val = (y 0).val; omega
    | ⟨1, _⟩ => show win0_1.index t (1 : Fin 2) * 64 + 1 * (y 1).val = (y 1).val; omega
  · funext y
    show V m c main_v2 (((cfg0.win 2).blk t).view.emb y) = V m c main_v2 y
    refine congrArg (V m c main_v2) (funext fun a => Fin.ext ?_)
    match a with
    | ⟨0, _⟩ => show win0_2.index t (0 : Fin 2) * 4096 + 1 * (y 0).val = (y 0).val; omega
    | ⟨1, _⟩ => show win0_2.index t (1 : Fin 2) * 64 + 1 * (y 1).val = (y 1).val; omega
  · funext y
    show V m c main_v3 (((cfg0.win 3).blk t).view.emb y) = V m c main_v3 y
    refine congrArg (V m c main_v3) (funext fun a => Fin.ext ?_)
    match a with
    | ⟨0, _⟩ => show win0_3.index t (0 : Fin 2) * 1 + 1 * (y 0).val = (y 0).val; omega
    | ⟨1, _⟩ => show win0_3.index t (1 : Fin 2) * 4096 + 1 * (y 1).val = (y 1).val; omega
  · show win0_4.index t (0 : Fin 2) * 256 + 1 * (j 0).val = t.val * 256 + (j 0).val; omega
  · show win0_4.index t (1 : Fin 2) * 4096 + 1 * (j 1).val = (j 1).val; omega

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v4).slice (win0_4.rect t)).set ↔ _
  rw [View.set_slice_whole, Rect.mem_set_unit]
  exact Iff.rfl

/-- Every index of the array is in the block of the point its row band names. -/
theorem cover (i : S8192x4096.Idx) : ∃ t : Fin cfg0.N, (cfg0.win 4).flush t = true ∧ i ∈ ((cfg0.win 4).blk t).view.set := by
  have hi0 : (i 0).val < 8192 := idx2_lt0 i
  have hi1 : (i 1).val < 4096 := idx2_lt1 i
  have hN : (i 0).val / 256 < cfg0.N := by show _ < grid0.N; rw [N_0]; omega
  obtain ⟨a00, a01, a10, a11, a20, a21, a30, a31, a40, a41⟩ := idx_facts ⟨(i 0).val / 256, hN⟩
  refine ⟨⟨(i 0).val / 256, hN⟩, flush0_4 _, ?_⟩
  rw [mem_blk]
  intro a
  match a with
  | ⟨0, _⟩ =>
    show win0_4.index ⟨(i 0).val / 256, hN⟩ (0 : Fin 2) * 256 ≤ (i 0).val ∧ (i 0).val < win0_4.index ⟨(i 0).val / 256, hN⟩ (0 : Fin 2) * 256 + 256
    have e : win0_4.index ⟨(i 0).val / 256, hN⟩ (0 : Fin 2) = (i 0).val / 256 := a40
    omega
  | ⟨1, _⟩ =>
    show win0_4.index ⟨(i 0).val / 256, hN⟩ (1 : Fin 2) * 4096 ≤ (i 1).val ∧ (i 1).val < win0_4.index ⟨(i 0).val / 256, hN⟩ (1 : Fin 2) * 4096 + 4096
    omega

/-- THE ARRAY after the region: `rows` of the arrays as the region finds them. -/
theorem final (c : Dev nD) :
    (dats m 0 c).arrAt 4 cfg0.N = rows (V m c main_v0) (V m c main_v1) (V m c main_v2) (V m c main_v3) :=
  (dats m 0 c).arrAt_eq_of_cover 4 _ (fun t _ => flushed_eq m c t) cover

end Cert.KernelIdeal.ResultArray

end
-- ==== Proof.KernelValue.lean ====
/-
  The idealized kernel's result as a function of its arguments. Before the region the host flattens the input
  [4, 2048, 4096] to [8192, 4096] (row `b·2048 + s`), changes the two factors' float format (the identity on the
  extended reals) and recasts the bias [4096] as a row [1, 4096]; the region leaves `rows` of those four arrays
  (ResultArray); after the region the host recasts the [8192, 4096] array back to [4, 2048, 4096]. So the result is

      result x U V β = recast (rows (flatten x) V U (row β)),

  where the region's second operand is the factor `V` (the program's third argument) and its third operand the
  factor `U` (the program's second argument).
-/
import proofs.«116451_j43069932044591_1_alg».proof.Proof.ResultArray
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo
open Idealize.ShloMosaic.Pipeline (Dat)

/-- The program's result as one function of its four argument arrays. -/
def result (x : Vec Ideal S4x2048x4096 .f32) (U V : Vec Ideal S4096x64 .f32) (β : Vec Ideal S4096 .f32) :
    Vec Ideal S4x2048x4096 .f32 :=
  shapeCast S4x2048x4096
    (ResultArray.rows (shapeCast S8192x4096 x shapeCasts_S4x2048x4096_S8192x4096) (truncf (F := Ideal) (φ := .f32) .bf16 V bitsLt_bf16_f32)
      (truncf (F := Ideal) (φ := .f32) .bf16 U bitsLt_bf16_f32) (shapeCast S1x4096 β shapeCasts_S4096_S1x4096))
    shapeCasts_S8192x4096_S4x2048x4096

variable (m : (ℓ : Loc nD τ sig) → Buf (Elt Ideal) ℓ) (ρ : Dev nD → PrngReg)

/-- The region finds the input flattened. -/
theorem V_main_v0 (c : Dev nD) : (V m c main_v0 : Vec Ideal S8192x4096 .f32)
    = shapeCast S8192x4096 (m ((c : Thread nD τ).loc main_arg0)) shapeCasts_S4x2048x4096_S8192x4096 := by
  show StableHlo.after hostOps0 (fun b => m (c, b)) (Proc.devRef .tc main_v0) = _
  after_results
  rfl

/-- Its second operand is the third argument in the narrower format. -/
theorem V_main_v1 (c : Dev nD) : (V m c main_v1 : Vec Ideal S4096x64 .bf16)
    = truncf (F := Ideal) (φ := .f32) .bf16 (m ((c : Thread nD τ).loc main_arg2)) bitsLt_bf16_f32 := by
  show StableHlo.after hostOps0 (fun b => m (c, b)) (Proc.devRef .tc main_v1) = _
  after_results

/-- Its third operand is the second argument in the narrower format. -/
theorem V_main_v2 (c : Dev nD) : (V m c main_v2 : Vec Ideal S4096x64 .bf16)
    = truncf (F := Ideal) (φ := .f32) .bf16 (m ((c : Thread nD τ).loc main_arg1)) bitsLt_bf16_f32 := by
  show StableHlo.after hostOps0 (fun b => m (c, b)) (Proc.devRef .tc main_v2) = _
  after_results

/-- Its fourth operand is the bias as a row. -/
theorem V_main_v3 (c : Dev nD) : (V m c main_v3 : Vec Ideal S1x4096 .f32)
    = shapeCast S1x4096 (m ((c : Thread nD τ).loc main_arg3)) shapeCasts_S4096_S1x4096 := by
  show StableHlo.after hostOps0 (fun b => m (c, b)) (Proc.devRef .tc main_v3) = _
  after_results
  rfl

/-- The host line after the region recasts the region's array. -/
theorem tail (c : Dev nD) : (Pipeline.afterTail₀ cfgs (dats m) 0 (V0 m) [hostOps1] c main_v5 : Vec Ideal S4x2048x4096 .f32)
    = shapeCast S4x2048x4096 ((dats m 0 c).arrAt 4 cfg0.N) shapeCasts_S8192x4096_S4x2048x4096 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = (dats m 0 c).arrAt 4 cfg0.N :=
    Pipeline.withArrays_arr spec0 launch0.win.arr_inj c (V0 m c) (fun w => (dats m 0 c).arrAt w cfg0.N) 4
  rw [e]
  rfl

/-- The result buffer after the run is `result` of the arguments as launched. -/
theorem result_eq (c : Dev nD) : (Pipeline.afterTail₀ cfgs (dats m) 0 (V0 m) [hostOps1] c main_v5 : Vec Ideal S4x2048x4096 .f32)
    = result (m ((c : Thread nD τ).loc main_arg0)) (m ((c : Thread nD τ).loc main_arg1)) (m ((c : Thread nD τ).loc main_arg2))
        (m ((c : Thread nD τ).loc main_arg3)) := by
  rw [tail, ResultArray.final, V_main_v0, V_main_v1, V_main_v2, V_main_v3]
  rfl

/-- Every weakly fair execution of the idealized kernel terminates with the result buffer at `result` of the arguments
    and the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.FiniteInputs.lean ====
/-
  What the precondition says of the entries. `finite_inputs` is the conjunction, over the four argument arrays, of
  "every entry's absolute value is below +∞". On the extended reals `|a| = max a (-a)`, and the pattern `0x7F800000`
  denotes `⊤`; so the precondition holding gives, for every entry `a` of the input and of the two factors,
  `a ≠ ⊤` and `a ≠ ⊥`: each entry is a real number. (The bias is only ever added, so its finiteness is not needed.)
-/
import proofs.«116451_j43069932044591_1_alg».proof.Pre_finite_inputs
import proofs.«116451_j43069932044591_1_alg».proof.Proof.LibRankFactor
import Idealize.ShloMosaic.PureOps.Ideal
import Idealize.ShloMosaic.Lib.ReduceAll
import Idealize.ShloMosaic.Lib.ValueIdx

noncomputable section

namespace Cert.FiniteInputs

open Cert.Pre_finite_inputs Idealize.ShloMosaic Idealize.ShloMosaic.ValueIdx

instance : Subsingleton S_.Idx := ⟨fun a b => funext fun d => d.elim0⟩

/-- The pattern of +∞. -/
theorem ofBits_inf : Ideal.ofBits .f32 0x7F800000#32 = ⊤ := by simp [Ideal.ofBits, Ideal.ieee]

/-- One comparison `|a| < +∞` that came out true: `a` is a real number. -/
theorem elt_finite (a : EReal) (h : Ideal.cmp .olt (max a (-a)) (Ideal.ofBits .f32 0x7F800000#32) = 1#1) :
    a ≠ ⊤ ∧ a ≠ ⊥ := by
  rw [ofBits_inf] at h
  refine RankFactor.finite_of_abs_lt_top ?_
  unfold Ideal.cmp at h
  by_contra hn
  simp [hn] at h

variable [Facts]

/-- The precondition's function at all ones: every entry of the input and of the two factors is a real number. -/
theorem of_fn (x : FVec Ideal S4x2048x4096 .f32) (U V : FVec Ideal S4096x64 .f32) (β : FVec Ideal S4096 .f32)
    (h : fn (F := Ideal) x U V β = fun _ => 1#1) :
    (∀ i, x i ≠ ⊤ ∧ x i ≠ ⊥) ∧ (∀ i, U i ≠ ⊤ ∧ U i ≠ ⊥) ∧ (∀ i, V i ≠ ⊤ ∧ V i ≠ ⊥) := by
  have h0 := congrFun h ix0
  dsimp only [fn, fn_part1, andi] at h0
  obtain ⟨h1, -⟩ := IntOp.andi_eq_one.1 h0
  obtain ⟨h2, hV⟩ := IntOp.andi_eq_one.1 h1
  obtain ⟨hx, hU⟩ := IntOp.andi_eq_one.1 h2
  refine ⟨fun i => ?_, fun i => ?_, fun i => ?_⟩
  · exact elt_finite (x i) (Host.reduce_andi_all _ _ _ _ ix0 hx i)
  · exact elt_finite (U i) (Host.reduce_andi_all _ _ _ _ ix0 hU i)
  · exact elt_finite (V i) (Host.reduce_andi_all _ _ _ _ ix0 hV i)

end Cert.FiniteInputs

end
-- ==== Proof.ReferenceEntry.lean ====
/-
  One entry of the reference's result. The reference first forms the full weight `W (o, i) = ∑ k < 64, U (o, k) · V (i, k)`
  and then contracts the input's last axis with it and adds the bias: at batch `b`, position `s` and output feature `o`,

      ∑ i < 4096, x (b, s, i) · (∑ k < 64, U (o, k) · V (i, k))  +  β (o).

  Each stage is read at an index by the generated read lemmas of the reference's run; what is written here is only
  which coordinates those stages' index functions have at `(b, s, o)`.
-/
import proofs.«116451_j43069932044591_1_alg».proof.Proof.Gen.ReferenceIdeal.Read

noncomputable section

namespace Cert.ReferenceIdeal.EntryValue

open Cert.ReferenceIdeal Cert.ReferenceIdeal.Gen Cert.ReferenceIdeal.Read Idealize.ShloMosaic Idealize.ShloMosaic.ValueIdx

/-- The reference's result at `(b, s, o)`. -/
theorem entry (x : (⟨S4x2048x4096, .f32⟩ : BufTy).Contents (Elt Ideal)) (U V : (⟨S4096x64, .f32⟩ : BufTy).Contents (Elt Ideal))
    (β : (⟨S4096, .f32⟩ : BufTy).Contents (Elt Ideal)) (b : Fin 4) (s : Fin 2048) (o : Fin 4096) :
    val_main_v4 (F := Ideal) x U V β (ix3 b s o)
      = (∑ i : Fin 4096, x (ix3 b s i) * ∑ k : Fin 64, U (ix2 o k) * V (ix2 i k)) + β (ix1 o) := by
  have el1 : ∀ i : Fin 4096, lidx_main_v1 (ix3 b s o) i = ix3 b s i := fun i => funext fun a => Fin.ext (by
    match a with
    | ⟨0, _⟩ => rfl
    | ⟨1, _⟩ => rfl
    | ⟨2, _⟩ => rfl)
  have el0 : ∀ (i : Fin 4096) (k : Fin 64), lidx_main_v0 (ridx_main_v1 (ix3 b s o) i) k = ix2 o k := fun i k => funext fun a => Fin.ext (by
    match a with
    | ⟨0, _⟩ => rfl
    | ⟨1, _⟩ => rfl)
  have er0 : ∀ (i : Fin 4096) (k : Fin 64), ridx_main_v0 (ridx_main_v1 (ix3 b s o) i) k = ix2 i k := fun i k => funext fun a => Fin.ext (by
    match a with
    | ⟨0, _⟩ => rfl
    | ⟨1, _⟩ => rfl)
  have eb : idx_main_v2 (idx_main_v3 (ix3 b s o)) = ix1 o := funext fun a => Fin.ext (by
    match a with
    | ⟨0, _⟩ => rfl)
  rw [val_main_v4_apply, val_main_v1_apply, val_main_v3_apply, val_main_v2_apply]
  simp only [val_main_v0_apply, el1, el0, er0, eb]
  rfl

end Cert.ReferenceIdeal.EntryValue

end
-- ==== Proof.SameFunction.lean ====
/-
  The two programs compute one function of finite arguments. At batch `b`, position `s`, output feature `o`:

    kernel     ∑ k < 64, (∑ i < 4096, x (b, s, i) · V (i, k)) · U (o, k) + β (o)      (row `b·2048 + s` of the flattened input)
    reference  ∑ i < 4096, x (b, s, i) · (∑ k < 64, U (o, k) · V (i, k)) + β (o)

  The kernel contracts the input with `V` first and the 64 rank coordinates with `U` second; the reference forms
  the full weight `U · Vᵀ` first. The two double sums are equal by distributivity and exchange of the sums, which
  hold because every entry of `x`, `U`, `V` is a real number (RankFactor.factor); the bias is added on both sides.
-/
import proofs.«116451_j43069932044591_1_alg».proof.Proof.KernelValue
import proofs.«116451_j43069932044591_1_alg».proof.Proof.ReferenceEntry
import proofs.«116451_j43069932044591_1_alg».proof.Proof.LibRankFactor
import Idealize.ShloMosaic.Lib.ValueLayout

noncomputable section

namespace Cert.SameFunction

open Idealize.ShloMosaic Idealize.ShloMosaic.ValueIdx

/-- The kernel's result function is the reference's last stage, on finite arguments. -/
theorem result_eq_reference (x : Vec Ideal Cert.KernelIdeal.S4x2048x4096 .f32) (U V : Vec Ideal Cert.KernelIdeal.S4096x64 .f32)
    (β : Vec Ideal Cert.KernelIdeal.S4096 .f32)
    (hx : ∀ i, (x i : EReal) ≠ ⊤ ∧ (x i : EReal) ≠ ⊥) (hU : ∀ i, (U i : EReal) ≠ ⊤ ∧ (U i : EReal) ≠ ⊥)
    (hV : ∀ i, (V i : EReal) ≠ ⊤ ∧ (V i : EReal) ≠ ⊥) :
    Cert.KernelIdeal.KernelValue.result x U V β = Cert.ReferenceIdeal.Read.val_main_v4 (F := Ideal) x U V β := by
  funext j
  obtain ⟨b, s, o, rfl⟩ : ∃ (b : Fin 4) (s : Fin 2048) (o : Fin 4096), j = ix3 b s o := ⟨j 0, j 1, j 2, eq_ix3 j⟩
  have hr : b.val * 2048 + s.val < 8192 := by have := b.isLt; have := s.isLt; omega
  rw [Cert.ReferenceIdeal.EntryValue.entry]
  unfold Cert.KernelIdeal.KernelValue.result
  rw [shapeCast_apply _ _ (ix3 b s o) (ix2 (⟨b.val * 2048 + s.val, hr⟩ : Fin 8192) o) (by
    rw [Shape.rowMajor_val_two, Shape.rowMajor_val_three]; rfl)]
  have ex : ∀ i : Fin 4096, shapeCast Cert.KernelIdeal.S8192x4096 x Cert.KernelIdeal.Gen.shapeCasts_S4x2048x4096_S8192x4096
      (ix2 (⟨b.val * 2048 + s.val, hr⟩ : Fin 8192) i) = x (ix3 b s i) :=
    fun i => shapeCast_apply x _ _ _ (by rw [Shape.rowMajor_val_two, Shape.rowMajor_val_three]; rfl)
  show (∑ k : Fin 64, (∑ i : Fin 4096,
        shapeCast Cert.KernelIdeal.S8192x4096 x Cert.KernelIdeal.Gen.shapeCasts_S4x2048x4096_S8192x4096 (ix2 (⟨b.val * 2048 + s.val, hr⟩ : Fin 8192) i)
          * (truncf (F := Ideal) (φ := .f32) .bf16 V Cert.KernelIdeal.Gen.bitsLt_bf16_f32 : FVec Ideal Cert.KernelIdeal.S4096x64 .bf16) (ix2 i k))
        * (truncf (F := Ideal) (φ := .f32) .bf16 U Cert.KernelIdeal.Gen.bitsLt_bf16_f32 : FVec Ideal Cert.KernelIdeal.S4096x64 .bf16) (ix2 o k))
      + shapeCast Cert.KernelIdeal.S1x4096 β Cert.KernelIdeal.Gen.shapeCasts_S4096_S1x4096 (ix2 (0 : Fin 1) o) = _
  simp only [ex, truncf_apply, shapeCast_a_1a_apply]
  exact congrArg (· + β (ix1 o))
    (RankFactor.factor (fun i : Fin 4096 => x (ix3 b s i)) (fun (i : Fin 4096) (k : Fin 64) => V (ix2 i k)) (fun k : Fin 64 => U (ix2 o k))
      (fun i => hx _) (fun i k => hV _) (fun k => hU _))

end Cert.SameFunction

end
-- ==== Proof.lean ====
/-
  A low-rank linear layer: the kernel against its reference, on the extended reals.

  Arguments: an input `x` [4, 2048, 4096], two factors `U`, `V` [4096, 64] of a rank-64 weight `W = U · Vᵀ` [4096, 4096],
  and a bias `β` [4096]. The reference materializes `W (o, i) = ∑ k, U (o, k) · V (i, k)` and returns
  `∑ i, x (b, s, i) · W (o, i) + β (o)`. The kernel flattens `x` to 8192 rows, and for each band of 256 rows computes
  `h = x · V` (256 × 64) and then `h · Uᵀ + β`, never forming `W`:
  `∑ k, (∑ i, x (b, s, i) · V (i, k)) · U (o, k) + β (o)`.

  The two are the same double sum of `x (b, s, i) · V (i, k) · U (o, k)`, summed in the two orders and bracketed in
  the two ways. On the extended reals that needs distributivity, which fails at the infinities; the precondition
  says every input entry is finite, and that is where it is used (FiniteInputs, LibRankFactor). Changes of float
  format are the identity here, and a product accumulated into zero is the plain sum, so nothing else separates
  the two programs.

  The modules: TileEntry (one entry of the tile a grid point stores), ResultArray (the 32 row bands tile the
  array, which therefore holds one function of the region's operands), KernelValue (the host lines around the
  region: flatten, recast, and back), ReferenceEntry (the reference at an index), SameFunction (the equality).
  The three frames are the generated ones; the reference's is its generated run with the result dropped; the
  idealization rewrote nothing, so there is nothing to preserve.
-/
import proofs.«116451_j43069932044591_1_alg».proof.Defs
import proofs.«116451_j43069932044591_1_alg».proof.Proof.Gen.Kernel
import proofs.«116451_j43069932044591_1_alg».proof.Proof.Gen.Kernel.Skeleton
import proofs.«116451_j43069932044591_1_alg».proof.Proof.Gen.Kernel.Launch
import proofs.«116451_j43069932044591_1_alg».proof.Proof.Gen.Kernel.Points
import proofs.«116451_j43069932044591_1_alg».proof.Proof.Gen.Kernel.Frame
import proofs.«116451_j43069932044591_1_alg».proof.Proof.Gen.KernelIdeal
import proofs.«116451_j43069932044591_1_alg».proof.Proof.Gen.KernelIdeal.Skeleton
import proofs.«116451_j43069932044591_1_alg».proof.Proof.Gen.KernelIdeal.Launch
import proofs.«116451_j43069932044591_1_alg».proof.Proof.Gen.KernelIdeal.Points
import proofs.«116451_j43069932044591_1_alg».proof.Proof.Gen.KernelIdeal.Frame
import proofs.«116451_j43069932044591_1_alg».proof.Proof.Gen.ReferenceIdeal
import proofs.«116451_j43069932044591_1_alg».proof.Proof.Gen.Pre_finite_inputs
import proofs.«116451_j43069932044591_1_alg».proof.Proof.Gen.ReferenceIdeal.Run
import proofs.«116451_j43069932044591_1_alg».proof.Proof.Gen.ReferenceIdeal.Read
import proofs.«116451_j43069932044591_1_alg».proof.Proof.KernelValue
import proofs.«116451_j43069932044591_1_alg».proof.Proof.FiniteInputs
import proofs.«116451_j43069932044591_1_alg».proof.Proof.SameFunction
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the same result: the kernel's run leaves
    `result` of the arguments, the reference's run leaves its last stage of the same arguments, and on finite
    arguments those are one function. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2.1, (hagree c).2.2.2]
  obtain ⟨hx, hU, hV⟩ := Cert.FiniteInputs.of_fn _ _ _ _ (hpre c)
  exact (Cert.SameFunction.result_eq_reference _ _ _ _ hx hU hV).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
